-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64 : Shape := ⟨2, ![4096, 64]⟩
abbrev S64x768 : Shape := ⟨2, ![64, 768]⟩
abbrev S768x768 : Shape := ⟨2, ![768, 768]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x768 : S_.BroadcastsInDim S64x768 (![] : Fin 0 → Fin S64x768.rank)
  reducesTo_S64x768_S_d0_1 : S64x768.ReducesTo [0, 1] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S4x2048x4096 .f32) (main_arg1 : FVec F S4096x64 .f32) (main_arg2 : FVec F S64x768 .f32) (main_arg3 : FVec F S768x768 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S4x2048x4096 : Shape := ⟨3, ![4, 2048, 4096]⟩
abbrev S4096x64 : Shape := ⟨2, ![4096, 64]⟩
abbrev S64x768 : Shape := ⟨2, ![64, 768]⟩
abbrev S768x768 : Shape := ⟨2, ![768, 768]⟩
abbrev S8192x4096 : Shape := ⟨2, ![8192, 4096]⟩
abbrev S768x64 : Shape := ⟨2, ![768, 64]⟩
abbrev S64x64 : Shape := ⟨2, ![64, 64]⟩
abbrev S_ : Shape := ⟨0, ![]⟩
abbrev S128x128 : Shape := ⟨2, ![128, 128]⟩
abbrev S1 : Shape := ⟨1, ![1]⟩
abbrev S2 : Shape := ⟨1, ![2]⟩
abbrev S4096x128 : Shape := ⟨2, ![4096, 128]⟩
abbrev S256x4096 : Shape := ⟨2, ![256, 4096]⟩
abbrev S256x128 : Shape := ⟨2, ![256, 128]⟩

abbrev nBuf : Space → Nat
  | .hbm => 26
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S64x768, .f32⟩
  | .hbm, ⟨3, _⟩ => ⟨S768x768, .f32⟩
  | .hbm, ⟨4, _⟩ => ⟨S8192x4096, .f32⟩
  | .hbm, ⟨5, _⟩ => ⟨S768x768, .f32⟩
  | .hbm, ⟨6, _⟩ => ⟨S768x64, .f32⟩
  | .hbm, ⟨7, _⟩ => ⟨S768x64, .f32⟩
  | .hbm, ⟨8, _⟩ => ⟨S64x64, .f32⟩
  | .hbm, ⟨9, _⟩ => ⟨S_, .f32⟩
  | .hbm, ⟨10, _⟩ => ⟨S128x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S128x128, .f32⟩
  | .hbm, ⟨17, _⟩ => ⟨S_, .f32⟩
  | .hbm, ⟨18, _⟩ => ⟨S4096x128, .f32⟩
  | .hbm, ⟨19, _⟩ => ⟨S_, .i32⟩
  | .hbm, ⟨20, _⟩ => ⟨S1, .i32⟩
  | .hbm, ⟨21, _⟩ => ⟨S4096x128, .f32⟩
  | .hbm, ⟨22, _⟩ => ⟨S4096x128, .bf16⟩
  | .hbm, ⟨23, _⟩ => ⟨S128x128, .bf16⟩
  | .hbm, ⟨24, _⟩ => ⟨S8192x4096, .f32⟩
  | .hbm, ⟨25, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x128, .bf16⟩
  | .local _ .vmem, ⟨3, _⟩ => ⟨S128x128, .bf16⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  transposes_S768x768_S768x768_1_0 : S768x768.Transposes [1, 0] S768x768
  transposes_S64x768_S768x64_1_0 : S64x768.Transposes [1, 0] S768x64
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S_S4096x128 : S_.BroadcastsInDim S4096x128 (![] : Fin 0 → Fin S4096x128.rank)
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8192x4096_S4x2048x4096 : S8192x4096.ShapeCasts S4x2048x4096
  dot_S768x768_S768x64_S768x64_1_0_0_1_n_n_wf : DotDims.WF S768x768 S768x64 S768x64 [1] [0] [0] [1] [] []
  dot_S64x768_S768x64_S64x64_1_0_0_1_n_n_wf : DotDims.WF S64x768 S768x64 S64x64 [1] [0] [0] [1] [] []
  scatter_S128x128_S2_S64x64_01_n_01_0_wf : ScatterDims.WF S128x128 S2 S64x64 [0, 1] [] [0, 1] 0
  scatter_S4096x128_S1_S4096x64_01_n_1_0_wf : ScatterDims.WF S4096x128 S1 S4096x64 [0, 1] [] [1] 0
  dot_S256x4096_S4096x128_S256x128_1_0_0_1_n_n_wf : DotDims.WF S256x4096 S4096x128 S256x128 [1] [0] [0] [1] [] []
  dot_S256x128_S128x128_S256x128_1_0_0_1_n_n_wf : DotDims.WF S256x128 S128x128 S256x128 [1] [0] [0] [1] [] []
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S768x768_S768x64_S768x64_1_0_0_1_n_n : DotDims S768x768 S768x64 S768x64 where
  lhsContracting := [1]
  rhsContracting := [0]
  lhsNonContracting := [0]
  rhsNonContracting := [1]
  lhsBatch := []
  rhsBatch := []
  wf := dot_S768x768_S768x64_S768x64_1_0_0_1_n_n_wf
def dot_S64x768_S768x64_S64x64_1_0_0_1_n_n : DotDims S64x768 S768x64 S64x64 where
  lhsContracting := [1]
  rhsContracting := [0]
  lhsNonContracting := [0]
  rhsNonContracting := [1]
  lhsBatch := []
  rhsBatch := []
  wf := dot_S64x768_S768x64_S64x64_1_0_0_1_n_n_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def scatter_S4096x128_S1_S4096x64_01_n_1_0 : ScatterDims S4096x128 S1 S4096x64 where
  updateWindowDims := [0, 1]
  insertedWindowDims := []
  scatterDimsToOperandDims := [1]
  indexVectorDim := 0
  wf := scatter_S4096x128_S1_S4096x64_01_n_1_0_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x64 : Shape := ⟨2, ![4096, 64]⟩
abbrev S64x768 : Shape := ⟨2, ![64, 768]⟩
abbrev S768x768 : Shape := ⟨2, ![768, 768]⟩
abbrev S4x2048x64 : Shape := ⟨3, ![4, 2048, 64]⟩
abbrev S4x2048x768 : Shape := ⟨3, ![4, 2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64, .f32⟩
  | .hbm, ⟨2, _⟩ => ⟨S64x768, .f32⟩
  | .hbm, ⟨3, _⟩ => ⟨S768x768, .f32⟩
  | .hbm, ⟨4, _⟩ => ⟨S4x2048x64, .f32⟩
  | .hbm, ⟨5, _⟩ => ⟨S4x2048x768, .f32⟩
  | .hbm, ⟨6, _⟩ => ⟨S4x2048x768, .f32⟩
  | .hbm, ⟨7, _⟩ => ⟨S4x2048x64, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  dot_S4x2048x4096_S4096x64_S4x2048x64_2_0_01_1_n_n_wf : DotDims.WF S4x2048x4096 S4096x64 S4x2048x64 [2] [0] [0, 1] [1] [] []
  dot_S4x2048x64_S64x768_S4x2048x768_2_0_01_1_n_n_wf : DotDims.WF S4x2048x64 S64x768 S4x2048x768 [2] [0] [0, 1] [1] [] []
  dot_S4x2048x768_S768x768_S4x2048x768_2_1_01_0_n_n_wf : DotDims.WF S4x2048x768 S768x768 S4x2048x768 [2] [1] [0, 1] [0] [] []
  dot_S4x2048x768_S64x768_S4x2048x64_2_1_01_0_n_n_wf : DotDims.WF S4x2048x768 S64x768 S4x2048x64 [2] [1] [0, 1] [0] [] []
  dot_S4x2048x64_S4096x64_S4x2048x4096_2_1_01_0_n_n_wf : DotDims.WF S4x2048x64 S4096x64 S4x2048x4096 [2] [1] [0, 1] [0] [] []

variable [Facts₀]

def dot_S4x2048x4096_S4096x64_S4x2048x64_2_0_01_1_n_n : DotDims S4x2048x4096 S4096x64 S4x2048x64 where
  lhsContracting := [2]
  rhsContracting := [0]
  lhsNonContracting := [0, 1]
  rhsNonContracting := [1]
  lhsBatch := []
  rhsBatch := []
  wf := dot_S4x2048x4096_S4096x64_S4x2048x64_2_0_01_1_n_n_wf
def dot_S4x2048x64_S64x768_S4x2048x768_2_0_01_1_n_n : DotDims S4x2048x64 S64x768 S4x2048x768 where
  lhsContracting := [2]
  rhsContracting := [0]
  lhsNonContracting := [0, 1]
  rhsNonContracting := [1]
  lhsBatch := []
  rhsBatch := []
  wf := dot_S4x2048x64_S64x768_S4x2048x768_2_0_01_1_n_n_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x2048x768_S64x768_S4x2048x64_2_1_01_0_n_n : DotDims S4x2048x768 S64x768 S4x2048x64 where
  lhsContracting := [2]
  rhsContracting := [1]
  lhsNonContracting := [0, 1]
  rhsNonContracting := [0]
  lhsBatch := []
  rhsBatch := []
  wf := dot_S4x2048x768_S64x768_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf

class Facts : Prop extends Facts₀ where

variable [Facts]
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.Payload.lean ====
/-
  What one grid step computes, entry by entry.

  The body loads a 256-row block `X` of the flattened input, the widened factor `A₀` (4096 × 128) and the widened
  core `C₀` (128 × 128), and stores `((X · A₀) · C₀) · A₀ᵀ`.  On the extended reals a change of float format is the
  identity and a matrix unit's product into the zero accumulator is the plain sum of products, so entry `(p, q)` of
  the stored block is

      Σ_k (Σ_r (Σ_e X[p,e] · A₀[e,r]) · C₀[r,k]) · A₀[q,k].
-/
import proofs.«141293_j26645977104594_2_alg».proof.Proof.Gen.KernelIdeal.Skeleton
import proofs.«141293_j26645977104594_2_alg».proof.Proof.LibPlainDot
import proofs.«141293_j26645977104594_2_alg».proof.Proof.LibRowRowDot
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- Entry `(p, q)` of `((X · A₀) · C₀) · A₀ᵀ` for a block `X` of `n` rows. -/
def triple {n : ℕ} (X : (⟨2, ![n, 4096]⟩ : Shape).Idx → EReal) (A0 : (⟨2, ![4096, 128]⟩ : Shape).Idx → EReal)
    (C0 : (⟨2, ![128, 128]⟩ : Shape).Idx → EReal) (p : Fin n) (q : Fin 4096) : EReal :=
  ∑ k : Fin 128, (∑ r : Fin 128, (∑ e : Fin 4096, X (ix2 p e) * A0 (ix2 e r)) * C0 (ix2 r k)) * A0 (ix2 q k)

/-- The stored block, entry by entry: the three products in turn, the format changes and the same-shape casts
    dropping out. -/
theorem pay_apply (x0 : Vec Ideal S256x4096 .f32) (x1 : Vec Ideal S4096x128 .bf16) (x2 : Vec Ideal S128x128 .bf16)
    (p : Fin 256) (q : Fin 4096) :
    k0_pay1 (F := Ideal) x0 x1 x2 (ix2 p q) = triple x0 x1 x2 p q := by
  unfold k0_pay1 triple
  refine (Cert.LibRowRowDot.matmul_zero_rows_apply dot_S256x128_S4096x128_S256x4096_1_1_0_0_n_n rfl rfl rfl rfl rfl rfl none _ _ p q).trans ?_
  refine Finset.sum_congr rfl fun k _ => ?_
  refine congrArg₂ (· * ·) ?_ (congrFun (shapeCast_self x1 _) (ix2 q k))
  refine (Cert.LibPlainDot.matmul_zero_apply dot_S256x128_S128x128_S256x128_1_0_0_1_n_n rfl rfl rfl rfl rfl rfl none _ _ p k).trans ?_
  refine Finset.sum_congr rfl fun r _ => ?_
  refine congrArg₂ (· * ·) ?_ (congrFun (shapeCast_self x2 _) (ix2 r k))
  refine (Cert.LibPlainDot.matmul_zero_apply dot_S256x4096_S4096x128_S256x128_1_0_0_1_n_n rfl rfl rfl rfl rfl rfl none _ _ p r).trans ?_
  refine Finset.sum_congr rfl fun e _ => ?_
  exact congrArg₂ (· * ·) (congrFun (shapeCast_self x0 _) (ix2 p e)) (congrFun (shapeCast_self x1 _) (ix2 e r))

end Cert.KernelIdeal.Body

end
-- ==== Proof.Blocks.lean ====
/-
  From what each grid step stores to the whole result array of the region.

  The grid has 32 steps; step `t` reads rows `256·t … 256·t + 255` of the flattened input `X` (8192 × 4096), the whole
  widened factor `A₀` and the whole widened core `C₀`, and writes rows `256·t … 256·t + 255` of the result.  Each
  stored entry depends only on its own row of `X`, so every block is the restriction of ONE function of the array
  index, `whole X A₀ C₀ (p, q) = Σ_k (Σ_r (Σ_e X[p,e]·A₀[e,r]) · C₀[r,k]) · A₀[q,k]`; the 32 row blocks cover the array
  (row `p` lies in block `p / 256`), so the array ends holding that function.
-/
import proofs.«141293_j26645977104594_2_alg».proof.Proof.Gen.KernelIdeal.Frame
import proofs.«141293_j26645977104594_2_alg».proof.Proof.Payload
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

theorem hz : (![0, 0] : Fin 2 → Nat) = fun _ => 0 := funext fun a => by fin_cases a <;> rfl

/-- The result array as one function of the three arrays the region reads: entry `(p, q)` from row `p` of `X`. -/
def whole (X : S8192x4096.Idx → EReal) (A0 : S4096x128.Idx → EReal) (C0 : S128x128.Idx → EReal) : S8192x4096.Idx → EReal :=
  fun i => triple X A0 C0 (i 0) (i 1)

/-- The printed index maps over the 32 steps: the input block and the output block are both row block `t`, column
    block `0`; the two resident operands stay at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 32 := lt_of_lt_of_eq t.isLt (N_0 : cfg0.N = 32)

/-- The input block of step `t` is rows `256·t + p` of `X`. -/
theorem blk0_apply (c : Dev nD) (t : Fin cfg0.N) (p : Fin 256) (e : Fin 4096) :
    iblk m c 0 t (ix2 p e) = V m c main_v0 (ix2 ⟨t.val * 256 + p.val, by have := lt_N t; omega⟩ e) := by
  obtain ⟨e0, e1, -⟩ := idx_facts t
  show V m c main_v0 (((cfg0.win 0).blk t).view.emb (ix2 p e)) = _
  refine congrArg (V m c main_v0) (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * e.val = e.val; omega

/-- The widened factor is read whole at every step. -/
theorem blk1_apply (c : Dev nD) (t : Fin cfg0.N) (e : Fin 4096) (r : Fin 128) :
    iblk m c 1 t (ix2 e r) = V m c main_v13 (ix2 e r) := by
  obtain ⟨-, -, e2, e3, -⟩ := idx_facts t
  show V m c main_v13 (((cfg0.win 1).blk t).view.emb (ix2 e r)) = _
  refine congrArg (V m c main_v13) (funext fun a => Fin.ext ?_)
  match a with
  | ⟨0, _⟩ => show win0_1.index t (0 : Fin 2) * 4096 + 1 * e.val = e.val; omega
  | ⟨1, _⟩ => show win0_1.index t (1 : Fin 2) * 128 + 1 * r.val = r.val; omega

/-- The widened core is read whole at every step. -/
theorem blk2_apply (c : Dev nD) (t : Fin cfg0.N) (r k : Fin 128) :
    iblk m c 2 t (ix2 r k) = V m c main_v14 (ix2 r k) := by
  obtain ⟨-, -, -, -, e4, e5, -⟩ := idx_facts t
  show V m c main_v14 (((cfg0.win 2).blk t).view.emb (ix2 r k)) = _
  refine congrArg (V m c main_v14) (funext fun a => Fin.ext ?_)
  match a with
  | ⟨0, _⟩ => show win0_2.index t (0 : Fin 2) * 128 + 1 * r.val = r.val; omega
  | ⟨1, _⟩ => show win0_2.index t (1 : Fin 2) * 128 + 1 * k.val = k.val; omega

/-- WHAT STEP `t` WRITES BACK is block `t` of `whole` of the arrays as the region finds them. -/
theorem flushed_eq (c : Dev nD) (t : Fin cfg0.N) :
    (dats m 0 c).flushed 3 t
      = ((cfg0.win 3).blk t).view.read (Elt Ideal) (whole (V m c main_v0) (V m c main_v13) (V m c main_v14)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S4096x128) hz, View.ld_unit_zero (S := S128x128) hz]
  obtain ⟨-, -, -, -, -, -, e6, e7⟩ := idx_facts t
  funext j
  obtain ⟨p, q, rfl⟩ : ∃ (p : Fin 256) (q : Fin 4096), j = ix2 p q := ⟨j 0, j 1, eq_ix2 j⟩
  have hrow : ((cfg0.win 3).blk t).view.emb (ix2 p q) = ix2 ⟨t.val * 256 + p.val, by have := lt_N t; omega⟩ q := by
    funext a; apply Fin.ext
    match a with
    | ⟨0, _⟩ => show win0_3.index t (0 : Fin 2) * 256 + 1 * p.val = t.val * 256 + p.val; omega
    | ⟨1, _⟩ => show win0_3.index t (1 : Fin 2) * 4096 + 1 * q.val = q.val; omega
  show k0_pay1 (iblk m c 0 t) (iblk m c 1 t) (iblk m c 2 t) (ix2 p q)
    = whole (V m c main_v0) (V m c main_v13) (V m c main_v14) (((cfg0.win 3).blk t).view.emb (ix2 p q))
  rw [hrow]
  refine (pay_apply (iblk m c 0 t) (iblk m c 1 t) (iblk m c 2 t) p q).trans ?_
  show triple (iblk m c 0 t) (iblk m c 1 t) (iblk m c 2 t) p q
    = triple (V m c main_v0) (V m c main_v13) (V m c main_v14) ⟨t.val * 256 + p.val, _⟩ q
  unfold triple
  refine Finset.sum_congr rfl fun k _ => ?_
  refine congrArg₂ (· * ·) (Finset.sum_congr rfl fun r _ => ?_) (blk1_apply m c t q k)
  refine congrArg₂ (· * ·) (Finset.sum_congr rfl fun e _ => ?_) (blk2_apply m c t r k)
  exact congrArg₂ (· * ·) (blk0_apply m c t p e) (blk1_apply m c t e r)

/-- An index of the result array is in step `t`'s block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v15).slice (win0_3.rect t)).set ↔ _
  rw [View.set_slice_whole, Rect.mem_set_unit]
  exact Iff.rfl

/-- Every index of the result array is in the block of the step its row falls in, `p / 256`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  refine ⟨⟨(i 0).val / 256, by rw [hN]; omega⟩, flush0_3 _, ?_⟩
  rw [mem_blk]
  obtain ⟨-, -, -, -, -, -, e6, e7⟩ := idx_facts ⟨(i 0).val / 256, by rw [hN]; omega⟩
  intro a
  match a with
  | ⟨0, _⟩ =>
    show win0_3.index ⟨(i 0).val / 256, _⟩ (0 : Fin 2) * 256 ≤ (i 0).val ∧ (i 0).val < win0_3.index ⟨(i 0).val / 256, _⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, _⟩ (1 : Fin 2) * 4096 ≤ (i 1).val ∧ (i 1).val < win0_3.index ⟨(i 0).val / 256, _⟩ (1 : Fin 2) * 4096 + 4096
    rw [e7]; omega

/-- THE RESULT ARRAY OF THE REGION after the run. -/
theorem final (c : Dev nD) :
    (dats m 0 c).arrAt 3 cfg0.N = whole (V m c main_v0) (V m c main_v13) (V m c main_v14) :=
  (dats m 0 c).arrAt_eq_of_cover 3 (whole (V m c main_v0) (V m c main_v13) (V m c main_v14))
    (fun t _ => flushed_eq m c t) cover

end Cert.KernelIdeal.Blocks

end
-- ==== Proof.LibSetScatter.lean ====
/-
  Reading a "set" scatter at an index.

  A stablehlo.scatter whose body returns the update (written x.at[…].set(u)) is a left fold over the
  update indices, each overwriting the element of the operand it lands on (or nothing, when it lands
  outside). This file proves what that fold holds at one element when no two updates land on it:

  * the fold of such overwriting steps over ANY list: an element no step lands on keeps the
    accumulator's value; an element on which every landing step writes the same value holds that value;
  * Host.scatter_set_apply_of_hit: an element exactly one update index lands on holds that update;
  * Host.scatter_set_apply_of_miss: an element no update index lands on holds the operand's value;
  * when every scatter index is zero, the landing index of an update is its window coordinates.
-/
import Idealize.ShloMosaic.PureOps.ShapeOps
import Idealize.ShloMosaic.PureOps.Dims
import Idealize.ShloMosaic.Lib.ValueIdx

namespace Idealize.ShloMosaic

/-! ## A fold of overwriting steps -/

section Fold
variable {ι β α : Type} [DecidableEq β]

/-- One overwriting step: position n replaces the element at g n (when there is one) by v n and
    leaves every other element as it was. -/
def setStep (g : ι → Option β) (v : ι → α) (r : β → α) (n : ι) : β → α :=
  match g n with
  | some k => fun i' => if i' = k then v n else r i'
  | none => r

variable {g : ι → Option β} {v : ι → α} {i : β}

/-- A step that does not land on i leaves the element at i unchanged. -/
theorem setStep_apply_of_ne {r : β → α} {n : ι} (h : g n ≠ some i) : setStep g v r n i = r i := by
  unfold setStep
  cases hg : g n with
  | none => rfl
  | some k => exact if_neg fun e => h (hg.trans (congrArg some e.symm))

/-- A step that lands on i writes its value there. -/
theorem setStep_apply_of_eq {r : β → α} {n : ι} (h : g n = some i) : setStep g v r n i = v n := by
  unfold setStep
  cases hg : g n with
  | none => exact absurd (h.symm.trans hg) (Option.some_ne_none i)
  | some k => exact if_pos (Option.some.inj (h.symm.trans hg))

/-- If no position of l lands on i, the fold over l leaves the element at i unchanged. -/
theorem foldl_setStep_apply_of_miss (l : List ι) (r : β → α) (h : ∀ n ∈ l, g n ≠ some i) :
    l.foldl (setStep g v) r i = r i := by
  induction l generalizing r with
  | nil => rfl
  | cons n l ih =>
    rw [List.foldl_cons, ih _ fun m hm => h m (List.mem_cons_of_mem _ hm),
      setStep_apply_of_ne (h n List.mem_cons_self)]

/-- If the element at i is c and every position of l landing on i writes c, the fold over l
    leaves c at i. -/
theorem foldl_setStep_apply_of_stable (l : List ι) (r : β → α) (c : α) (hr : r i = c)
    (h : ∀ n ∈ l, g n = some i → v n = c) : l.foldl (setStep g v) r i = c := by
  induction l generalizing r with
  | nil => exact hr
  | cons n l ih =>
    rw [List.foldl_cons]
    refine ih _ ?_ fun m hm => h m (List.mem_cons_of_mem _ hm)
    by_cases hn : g n = some i
    · rw [setStep_apply_of_eq hn]; exact h n List.mem_cons_self hn
    · rw [setStep_apply_of_ne hn]; exact hr

/-- If a position n0 of l lands on i and every position of l landing on i writes what n0 writes,
    the fold over l leaves that value at i. -/
theorem foldl_setStep_apply_of_hit (l : List ι) (r : β → α) (n0 : ι) (hn0 : n0 ∈ l) (h0 : g n0 = some i)
    (h : ∀ n ∈ l, g n = some i → v n = v n0) : l.foldl (setStep g v) r i = v n0 := by
  induction l generalizing r with
  | nil => cases hn0
  | cons n l ih =>
    rw [List.foldl_cons]
    rcases List.mem_cons.1 hn0 with rfl | hm
    · exact foldl_setStep_apply_of_stable l _ _ (setStep_apply_of_eq h0) fun m hm => h m (List.mem_cons_of_mem _ hm)
    · exact ih _ hm fun m hm' => h m (List.mem_cons_of_mem _ hm')

end Fold

/-! ## The scatter read at an index -/

section Scatter
variable {s si u : Shape} {w : Nat} {α : Type}

/-- A scatter whose body returns the update is the fold of overwriting steps over the update
    positions in row-major order. -/
theorem Host.scatter_set_eq_foldl (d : ScatterDims s si u) (x : s.Idx → α) (idx : IVec si w) (upd : u.Idx → α) :
    Host.scatter d (fun _ b => b) x idx upd =
      (List.finRange u.numel).foldl
        (setStep (fun n => d.resultIdx? (u.rowMajor.symm n) idx) fun n => upd (u.rowMajor.symm n)) x := by
  unfold Host.scatter
  congr 1
  funext r n
  unfold setStep
  dsimp only
  cases d.resultIdx? (u.rowMajor.symm n) idx <;> rfl

/-- An element of the operand on which exactly one update index j lands holds, after a scatter
    whose body returns the update, the update's element at j. -/
theorem Host.scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  have hsymm : u.rowMajor.symm (u.rowMajor j) = j := Equiv.symm_apply_apply _ _
  rw [Host.scatter_set_eq_foldl,
    foldl_setStep_apply_of_hit (List.finRange u.numel) x (u.rowMajor j) (List.mem_finRange _)
      (by rw [hsymm]; exact hj) (fun n _ hn => by rw [hsymm, huniq _ hn]), hsymm]

/-- An element of the operand on which no update index lands is, after a scatter whose body
    returns the update, the operand's. -/
theorem Host.scatter_set_apply_of_miss (d : ScatterDims s si u) (x : s.Idx → α) (idx : IVec si w) (upd : u.Idx → α)
    (i : s.Idx) (hno : ∀ j, d.resultIdx? j idx ≠ some i) :
    Host.scatter d (fun _ b => b) x idx upd i = x i := by
  rw [Host.scatter_set_eq_foldl, foldl_setStep_apply_of_miss _ _ fun n _ => hno _]

/-- With every scatter index zero, every window starts at zero on every axis. -/
theorem ScatterDims.start_eq_zero (d : ScatterDims s si u) (j : u.Idx) (idx : IVec si w) (hidx : ∀ b, idx b = 0#w)
    (a : Fin s.rank) : d.start j idx a = 0 := by
  unfold ScatterDims.start
  split
  · rw [hidx, BitVec.toInt_zero]
  · rfl

/-- With every scatter index zero, update index j lands at its window coordinates, when those are
    inside the operand on every axis, and nowhere when they are not. -/
theorem ScatterDims.resultIdx?_of_idx_zero (d : ScatterDims s si u) (j : u.Idx) (idx : IVec si w)
    (hidx : ∀ b, idx b = 0#w) :
    d.resultIdx? j idx =
      if h : ∀ a, d.window j a < s.size a then some fun a => ⟨d.window j a, h a⟩ else none := by
  unfold ScatterDims.resultIdx?
  by_cases h : ∀ a, d.window j a < s.size a
  · rw [dif_pos h, dif_pos fun a => by rw [d.start_eq_zero j idx hidx a]; have := h a; omega]
    refine congrArg some (funext fun a => Fin.ext ?_)
    show (d.start j idx a + d.window j a).toNat = d.window j a
    rw [d.start_eq_zero j idx hidx a]; omega
  · rw [dif_neg h, dif_neg fun h' => h fun a => by
      have := h' a; rw [d.start_eq_zero j idx hidx a] at this; omega]

end Scatter

end Idealize.ShloMosaic
-- ==== Proof.PadReads.lean ====
/-
  The two zero-paddings of this kernel, read at an index.

  The host code widens the rank from 64 to 128 by writing `A` (4096 × 64) into the left 64 columns of a 4096 × 128
  array of zeros, and the 64 × 64 core into the top-left corner of a 128 × 128 array of zeros.  Both are scatters
  whose body returns the update, at start indices that are all zero, so each update entry lands at its own
  coordinates: inside the written window the result is the update, outside it the array written into.
-/
import proofs.«141293_j26645977104594_2_alg».proof.Proof.LibSetScatter
import proofs.«141293_j26645977104594_2_alg».proof.Proof.Gen.KernelIdeal
import Idealize.ShloMosaic.Lib.ValueIdx

namespace Cert.KernelIdeal.Pad

open Idealize.ShloMosaic Idealize.ShloMosaic.ValueIdx Cert.KernelIdeal

/-- In the scatter of a 4096 × 64 update into a 4096 × 128 array, the window coordinate of update
    index j on either axis is j's own coordinate. -/
theorem columns_window (j : S4096x64.Idx) (a : Fin 2) :
    scatter_S4096x128_S1_S4096x64_01_n_1_0.window j a = (j a).val := by
  match a with
  | ⟨0, _⟩ =>
    show scatter_S4096x128_S1_S4096x64_01_n_1_0.window j 0 = (j 0).val
    unfold ScatterDims.window
    rw [dif_pos (show (0 : Fin S4096x128.rank) ∈ scatter_S4096x128_S1_S4096x64_01_n_1_0.sKept by decide)]
    rfl
  | ⟨1, _⟩ =>
    show scatter_S4096x128_S1_S4096x64_01_n_1_0.window j 1 = (j 1).val
    unfold ScatterDims.window
    rw [dif_pos (show (1 : Fin S4096x128.rank) ∈ scatter_S4096x128_S1_S4096x64_01_n_1_0.sKept by decide)]
    rfl

/-- With its scatter index zero, update index j of that scatter lands at its own coordinates. -/
theorem columns_resultIdx (idx : IVec S1 32) (hidx : ∀ b, idx b = 0#32) (j : S4096x64.Idx) :
    scatter_S4096x128_S1_S4096x64_01_n_1_0.resultIdx? j idx =
      some (ix2 ⟨(j 0).val, by have := idx2_lt0 j; omega⟩ ⟨(j 1).val, by have := idx2_lt1 j; omega⟩) := by
  have hw : ∀ a, scatter_S4096x128_S1_S4096x64_01_n_1_0.window j a < S4096x128.size a := fun a => by
    rw [columns_window]
    match a with
    | ⟨0, _⟩ => exact idx2_lt0 j
    | ⟨1, _⟩ => have := idx2_lt1 j; show (j 1).val < 128; omega
  rw [ScatterDims.resultIdx?_of_idx_zero _ _ _ hidx, dif_pos hw]
  refine congrArg some (funext fun a => Fin.ext ?_)
  match a with
  | ⟨0, _⟩ => exact columns_window j 0
  | ⟨1, _⟩ => exact columns_window j 1

/-- A 4096 × 64 update set at column 0 into a 4096 × 128 array: the left 64 columns hold the
    update, the right 64 the array. -/
theorem set_columns_apply {α : Type} (z : S4096x128.Idx → α) (idx : IVec S1 32) (hidx : ∀ b, idx b = 0#32)
    (upd : S4096x64.Idx → α) (e : Fin 4096) (k : Fin 128) :
    Host.scatter scatter_S4096x128_S1_S4096x64_01_n_1_0 (fun _ b => b) z idx upd (ix2 e k) =
      if h : k.val < 64 then upd (ix2 e ⟨k.val, h⟩) else z (ix2 e k) := by
  by_cases h : k.val < 64
  · rw [dif_pos h]
    refine Host.scatter_set_apply_of_hit _ z idx upd _ (ix2 e ⟨k.val, h⟩) ?_ fun j' hj' => ?_
    · rw [columns_resultIdx idx hidx]
    · rw [columns_resultIdx idx hidx] at hj'
      have h0 : (j' 0).val = e.val := congrArg Fin.val (congrFun (Option.some.inj hj') 0)
      have h1 : (j' 1).val = k.val := congrArg Fin.val (congrFun (Option.some.inj hj') 1)
      have e0 : j' 0 = e := Fin.ext h0
      have e1 : j' 1 = ⟨k.val, h⟩ := Fin.ext h1
      rw [eq_ix2 j', e0, e1]
      rfl
  · rw [dif_neg h]
    refine Host.scatter_set_apply_of_miss _ z idx upd _ fun j hj => ?_
    rw [columns_resultIdx idx hidx] at hj
    have h1 : (j 1).val = k.val := congrArg Fin.val (congrFun (Option.some.inj hj) 1)
    have := idx2_lt1 j
    omega

/-- In the scatter of a 64 × 64 update into a 128 × 128 array, the window coordinate of update
    index j on either axis is j's own coordinate. -/
theorem corner_window (j : S64x64.Idx) (a : Fin 2) :
    scatter_S128x128_S2_S64x64_01_n_01_0.window j a = (j a).val := by
  match a with
  | ⟨0, _⟩ =>
    show scatter_S128x128_S2_S64x64_01_n_01_0.window j 0 = (j 0).val
    unfold ScatterDims.window
    rw [dif_pos (show (0 : Fin S128x128.rank) ∈ scatter_S128x128_S2_S64x64_01_n_01_0.sKept by decide)]
    rfl
  | ⟨1, _⟩ =>
    show scatter_S128x128_S2_S64x64_01_n_01_0.window j 1 = (j 1).val
    unfold ScatterDims.window
    rw [dif_pos (show (1 : Fin S128x128.rank) ∈ scatter_S128x128_S2_S64x64_01_n_01_0.sKept by decide)]
    rfl

/-- With both its scatter indices zero, update index j of that scatter lands at its own coordinates. -/
theorem corner_resultIdx (idx : IVec S2 32) (hidx : ∀ b, idx b = 0#32) (j : S64x64.Idx) :
    scatter_S128x128_S2_S64x64_01_n_01_0.resultIdx? j idx =
      some (ix2 ⟨(j 0).val, by have := idx2_lt0 j; omega⟩ ⟨(j 1).val, by have := idx2_lt1 j; omega⟩) := by
  have hw : ∀ a, scatter_S128x128_S2_S64x64_01_n_01_0.window j a < S128x128.size a := fun a => by
    rw [corner_window]
    match a with
    | ⟨0, _⟩ => have := idx2_lt0 j; show (j 0).val < 128; omega
    | ⟨1, _⟩ => have := idx2_lt1 j; show (j 1).val < 128; omega
  rw [ScatterDims.resultIdx?_of_idx_zero _ _ _ hidx, dif_pos hw]
  refine congrArg some (funext fun a => Fin.ext ?_)
  match a with
  | ⟨0, _⟩ => exact corner_window j 0
  | ⟨1, _⟩ => exact corner_window j 1

/-- A 64 × 64 update set at row 0, column 0 into a 128 × 128 array: the top-left 64 × 64 corner
    holds the update, every other element the array. -/
theorem set_corner_apply {α : Type} (z : S128x128.Idx → α) (idx : IVec S2 32) (hidx : ∀ b, idx b = 0#32)
    (upd : S64x64.Idx → α) (r k : Fin 128) :
    Host.scatter scatter_S128x128_S2_S64x64_01_n_01_0 (fun _ b => b) z idx upd (ix2 r k) =
      if h : r.val < 64 ∧ k.val < 64 then upd (ix2 ⟨r.val, h.1⟩ ⟨k.val, h.2⟩) else z (ix2 r k) := by
  by_cases h : r.val < 64 ∧ k.val < 64
  · rw [dif_pos h]
    refine Host.scatter_set_apply_of_hit _ z idx upd _ (ix2 ⟨r.val, h.1⟩ ⟨k.val, h.2⟩) ?_ fun j' hj' => ?_
    · rw [corner_resultIdx idx hidx]
    · rw [corner_resultIdx idx hidx] at hj'
      have h0 : (j' 0).val = r.val := congrArg Fin.val (congrFun (Option.some.inj hj') 0)
      have h1 : (j' 1).val = k.val := congrArg Fin.val (congrFun (Option.some.inj hj') 1)
      have e0 : j' 0 = ⟨r.val, h.1⟩ := Fin.ext h0
      have e1 : j' 1 = ⟨k.val, h.2⟩ := Fin.ext h1
      rw [eq_ix2 j', e0, e1]
      rfl
  · rw [dif_neg h]
    refine Host.scatter_set_apply_of_miss _ z idx upd _ fun j hj => ?_
    rw [corner_resultIdx idx hidx] at hj
    have h0 : (j 0).val = r.val := congrArg Fin.val (congrFun (Option.some.inj hj) 0)
    have h1 : (j 1).val = k.val := congrArg Fin.val (congrFun (Option.some.inj hj) 1)
    have := idx2_lt0 j
    have := idx2_lt1 j
    omega

end Cert.KernelIdeal.Pad
-- ==== Proof.Spec.lean ====
/-
  The mathematics of the certificate, free of any program.

  One output entry of the low-rank "sandwich" `out = x · A · (B · Wᵀ · Bᵀ) · Aᵀ`, for one row `x` of the
  flattened input (4096 features), `A : 4096 × 64`, `B : 64 × 768`, `W : 768 × 768`, over the extended reals.

  * `chain`  — the five contractions taken one after the other, left to right:
      `((((x·A)·B)·Wᵀ)·Bᵀ)·Aᵀ`.
  * `fused`  — the 64 × 64 core `C = B·(Wᵀ·Bᵀ)` formed first, then `A` and `C` widened from 64 to 128
      columns (and rows) by zeros, and only three contractions per row: `((x·A₀)·C₀)·A₀ᵀ`.

  The two agree whenever every entry is a real number: the widened channels contribute `0`, and the rest is
  distributivity and the exchange of finite sums (`Law.lean`). On the extended reals with infinite entries
  distributivity fails, so the finiteness is used.
-/
import Mathlib.Data.EReal.Operations
import Mathlib.Algebra.BigOperators.Fin

noncomputable section

namespace Cert.Sandwich

open scoped BigOperators

/-- `A` widened from 64 to 128 columns by zeros. -/
def padA (A : Fin 4096 → Fin 64 → EReal) (d : Fin 4096) (k : Fin 128) : EReal :=
  if h : k.val < 64 then A d ⟨k.val, h⟩ else 0

/-- A 64 × 64 matrix placed in the top-left corner of a 128 × 128 matrix of zeros. -/
def padC (C : Fin 64 → Fin 64 → EReal) (r k : Fin 128) : EReal :=
  if h : r.val < 64 ∧ k.val < 64 then C ⟨r.val, h.1⟩ ⟨k.val, h.2⟩ else 0

/-- The inner product `Wᵀ · Bᵀ`, a 768 × 64 matrix: entry `(a, k)` is `Σ_j W[j,a] · B[k,j]`. -/
def wtbt (B : Fin 64 → Fin 768 → EReal) (W : Fin 768 → Fin 768 → EReal) (a : Fin 768) (k : Fin 64) : EReal :=
  ∑ j : Fin 768, W j a * B k j

/-- The core `C = B · (Wᵀ · Bᵀ)`, 64 × 64: entry `(r, k)` is `Σ_a B[r,a] · (Wᵀ·Bᵀ)[a,k]`. -/
def core (B : Fin 64 → Fin 768 → EReal) (W : Fin 768 → Fin 768 → EReal) (r k : Fin 64) : EReal :=
  ∑ a : Fin 768, B r a * wtbt B W a k

/-- Entry `d` of the row's result, the core formed first and the rank widened to 128 by zeros:
    `Σ_k (Σ_r (Σ_e x[e]·A₀[e,r]) · C₀[r,k]) · A₀[d,k]`. -/
def fused (x : Fin 4096 → EReal) (A : Fin 4096 → Fin 64 → EReal) (B : Fin 64 → Fin 768 → EReal)
    (W : Fin 768 → Fin 768 → EReal) (d : Fin 4096) : EReal :=
  ∑ k : Fin 128, (∑ r : Fin 128, (∑ e : Fin 4096, x e * padA A e r) * padC (core B W) r k) * padA A d k

/-- Entry `d` of the row's result, the five contractions one after the other:
    `Σ_k (Σ_j (Σ_a (Σ_r (Σ_e x[e]·A[e,r]) · B[r,a]) · W[j,a]) · B[k,j]) · A[d,k]`. -/
def chain (x : Fin 4096 → EReal) (A : Fin 4096 → Fin 64 → EReal) (B : Fin 64 → Fin 768 → EReal)
    (W : Fin 768 → Fin 768 → EReal) (d : Fin 4096) : EReal :=
  ∑ k : Fin 64, (∑ j : Fin 768, (∑ a : Fin 768, (∑ r : Fin 64, (∑ e : Fin 4096, x e * A e r) * B r a) * W j a) * B k j) * A d k

end Cert.Sandwich

end
-- ==== Proof.CoreRead.lean ====
/-
  The 64 × 64 core `C = B · (Wᵀ · Bᵀ)`, read at one entry.

  The core is two plain matrix products over the extended reals, the inner one of the two transposes. A plain
  product at `(p, o)` is the sum over `j` of `lhs(p, j) · rhs(j, o)`, and a transpose swaps the two coordinates:
  `(Wᵀ)(a, j) = W(j, a)`, `(Bᵀ)(j, k) = B(k, j)`. So the inner product at `(a, k)` is `Σ_j W[j,a] · B[k,j]`, and the
  core at `(r, k)` is `Σ_a B[r,a] · Σ_j W[j,a] · B[k,j]`.
-/
import proofs.«141293_j26645977104594_2_alg».proof.Proof.Gen.KernelIdeal
import proofs.«141293_j26645977104594_2_alg».proof.Proof.Spec
import proofs.«141293_j26645977104594_2_alg».proof.Proof.LibPlainDot
import Idealize.ShloMosaic.Lib.Pipeline.Value
import Idealize.ShloMosaic.Lib.ValueIdx
import Idealize.ShloMosaic.PureOps.Ideal.Laws

namespace Cert.KernelIdeal.Core

open Idealize.ShloMosaic Idealize.ShloMosaic.ValueIdx Cert.KernelIdeal Cert.KernelIdeal.Facts₀
open scoped BigOperators

/-- The transpose of `W` at `(a, j)` is `W` at `(j, a)`. -/
theorem transposeW_apply (W : FVec Ideal S768x768 .f32) (a j : Fin 768) :
    transpose S768x768 [1, 0] W transposes_S768x768_S768x768_1_0 (ix2 a j) = W (ix2 j a) :=
  transpose_apply [1, 0] W transposes_S768x768_S768x768_1_0 (ix2 a j) (ix2 j a) fun b => by
    match b with
    | ⟨0, _⟩ => rfl
    | ⟨1, _⟩ => rfl

/-- The transpose of `B` at `(j, k)` is `B` at `(k, j)`. -/
theorem transposeB_apply (B : FVec Ideal S64x768 .f32) (j : Fin 768) (k : Fin 64) :
    transpose S768x64 [1, 0] B transposes_S64x768_S768x64_1_0 (ix2 j k) = B (ix2 k j) :=
  transpose_apply [1, 0] B transposes_S64x768_S768x64_1_0 (ix2 j k) (ix2 k j) fun b => by
    match b with
    | ⟨0, _⟩ => rfl
    | ⟨1, _⟩ => rfl

/-- The inner product `Wᵀ · Bᵀ` at `(a, k)` is `Σ_j W[j,a] · B[k,j]`. -/
theorem inner_apply (B : FVec Ideal S64x768 .f32) (W : FVec Ideal S768x768 .f32) (a : Fin 768) (k : Fin 64) :
    Host.dotGeneral dot_S768x768_S768x64_S768x64_1_0_0_1_n_n none
        (transpose S768x768 [1, 0] W transposes_S768x768_S768x768_1_0)
        (transpose S768x64 [1, 0] B transposes_S64x768_S768x64_1_0) (ix2 a k)
      = Cert.Sandwich.wtbt (fun r a => B (ix2 r a)) (fun j a => W (ix2 j a)) a k := by
  refine (Cert.LibPlainDot.dotGeneral_apply _ rfl rfl rfl rfl rfl rfl _ _ _ _ a k).trans ?_
  unfold Cert.Sandwich.wtbt
  refine Finset.sum_congr rfl fun j _ => ?_
  rw [transposeW_apply, transposeB_apply]

/-- The core `B · (Wᵀ · Bᵀ)` at `(r, k)` is `Σ_a B[r,a] · Σ_j W[j,a] · B[k,j]`. -/
theorem core_apply (B : FVec Ideal S64x768 .f32) (W : FVec Ideal S768x768 .f32) (r k : Fin 64) :
    Host.dotGeneral dot_S64x768_S768x64_S64x64_1_0_0_1_n_n none B
        (Host.dotGeneral dot_S768x768_S768x64_S768x64_1_0_0_1_n_n none
          (transpose S768x768 [1, 0] W transposes_S768x768_S768x768_1_0)
          (transpose S768x64 [1, 0] B transposes_S64x768_S768x64_1_0)) (ix2 r k)
      = Cert.Sandwich.core (fun r a => B (ix2 r a)) (fun j a => W (ix2 j a)) r k := by
  refine (Cert.LibPlainDot.dotGeneral_apply _ rfl rfl rfl rfl rfl rfl _ _ _ _ r k).trans ?_
  unfold Cert.Sandwich.core
  refine Finset.sum_congr rfl fun a _ => ?_
  rw [inner_apply]

end Cert.KernelIdeal.Core
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.Result.lean ====
/-
  The result array both programs end holding, as one function of the four argument arrays.

  Entry `(b, s, d)` of the 4 × 2048 × 4096 result depends on row `(b, s)` of `x` only: it is entry `d` of the
  specification's `fused` form (the core first, the rank widened by zeros) for that row.  The kernel computes this
  form literally; the reference computes the specification's `chain`, equal to it for real entries.
-/
import proofs.«141293_j26645977104594_2_alg».proof.Proof.Spec
import Idealize.ShloMosaic.Lib.ValueIdx

noncomputable section

namespace Cert.Sandwich

open Idealize.ShloMosaic Idealize.ShloMosaic.ValueIdx

/-- Row `(b, s)` of the input. -/
def rowOf (x : (⟨3, ![4, 2048, 4096]⟩ : Shape).Idx → EReal) (b : Fin 4) (s : Fin 2048) : Fin 4096 → EReal :=
  fun e => x (ix3 b s e)

/-- A rank-2 array as a function of its two coordinates. -/
def mat {n k : ℕ} (M : (⟨2, ![n, k]⟩ : Shape).Idx → EReal) : Fin n → Fin k → EReal := fun i j => M (ix2 i j)

/-- The result array. -/
def result (x : (⟨3, ![4, 2048, 4096]⟩ : Shape).Idx → EReal) (A : (⟨2, ![4096, 64]⟩ : Shape).Idx → EReal)
    (B : (⟨2, ![64, 768]⟩ : Shape).Idx → EReal) (W : (⟨2, ![768, 768]⟩ : Shape).Idx → EReal) :
    (⟨3, ![4, 2048, 4096]⟩ : Shape).Idx → EReal :=
  fun i => fused (rowOf x (i 0) (i 1)) (mat A) (mat B) (mat W) (i 2)

end Cert.Sandwich

end
-- ==== Proof.HostSide.lean ====
/-
  The three arrays the region reads, as the host code before it leaves them, entry by entry.

  * the flattened input: row `2048·b + s` of the 8192 × 4096 array is row `(b, s)` of `x` (a row-major reshape);
  * the widened factor `A₀`: `A` written into the left 64 columns of a 4096 × 128 array of zeros;
  * the widened core `C₀`: `C = B · (Wᵀ · Bᵀ)` written into the top-left corner of a 128 × 128 array of zeros.

  The change of float format applied to `A₀` and `C₀` is the identity on the extended reals.  With these, the
  region's result array at row `2048·b + s` is the specification's `fused` form for row `(b, s)` of `x`.
-/
import proofs.«141293_j26645977104594_2_alg».proof.Proof.Gen.KernelIdeal.Frame
import proofs.«141293_j26645977104594_2_alg».proof.Proof.Blocks
import proofs.«141293_j26645977104594_2_alg».proof.Proof.PadReads
import proofs.«141293_j26645977104594_2_alg».proof.Proof.CoreRead
import proofs.«141293_j26645977104594_2_alg».proof.Proof.LibBatchBlocks
import proofs.«141293_j26645977104594_2_alg».proof.Proof.Result
import Idealize.ShloMosaic.Lib.StableHlo.Run
import Idealize.ShloMosaic.PureOps.Ideal.Laws

noncomputable section

namespace Cert.KernelIdeal.HostSide

open Idealize.ShloMosaic Idealize.ShloMosaic.TcCoe Idealize.ShloMosaic.ValueIdx Idealize.SL.Sem
open Idealize.ShloMosaic.StableHlo
open Cert.KernelIdeal Cert.KernelIdeal.Gen Cert.KernelIdeal.Body Cert.KernelIdeal.Blocks Cert.Sandwich

variable (m : (ℓ : Loc nD τ sig) → Buf (Elt Ideal) ℓ)

/-- The flattened input is the row-major reshape of `x`. -/
theorem V_flat (c : Dev nD) :
    V m c main_v0 = shapeCast S8192x4096 (m ((c : Thread nD τ).loc main_arg0)) shapeCasts_S4x2048x4096_S8192x4096 := by
  show StableHlo.after hostOps0 (fun b => m (c, b)) (Proc.devRef .tc main_v0) = _
  after_results
  rfl

/-- Row `2048·b + s` of the flattened input is row `(b, s)` of `x`. -/
theorem flat_apply (c : Dev nD) (b : Fin 4) (s : Fin 2048) (e : Fin 4096) :
    V m c main_v0 (ix2 ⟨b.val * 2048 + s.val, by have := b.isLt; have := s.isLt; omega⟩ e)
      = rowOf (m ((c : Thread nD τ).loc main_arg0)) b s e := by
  rw [V_flat]
  exact Cert.LibBatchBlocks.shapeCast_merge01_apply _ _ _ b s e rfl

/-- On the extended reals a change to a narrower float format is the identity. -/
theorem truncf_id {s : Shape} {φ ψ : FTy} (x : FVec Ideal s φ) (h : ψ.bits < φ.bits) :
    (truncf (F := Ideal) ψ x h : s.Idx → EReal) = x := rfl

/-- The zero arrays the host code writes into, and the start indices of the two writes. -/
abbrev zerosA : FVec Ideal S4096x128 .f32 :=
  broadcastInDim S4096x128 ![] bcast_S_S4096x128 (constant (F := Ideal) S_ .f32 0x00000000#32)
abbrev zerosC : FVec Ideal S128x128 .f32 :=
  broadcastInDim S128x128 ![] bcast_S_S128x128 (constant (F := Ideal) S_ .f32 0x00000000#32)
abbrev startA : IVec S1 32 := broadcastInDim S1 ![] bcast_S_S1 (constantI S_ 32 0#32)
abbrev startC : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

theorem zerosA_apply (i : S4096x128.Idx) : zerosA i = 0 := Ideal.ofBits_zero_f32
theorem zerosC_apply (i : S128x128.Idx) : zerosC i = 0 := Ideal.ofBits_zero_f32
theorem startA_zero (b : S1.Idx) : startA b = 0#32 := rfl
theorem startC_zero (b : S2.Idx) : startC b = 0#32 := by
  obtain ⟨i, rfl⟩ : ∃ i : Fin 2, b = ix1 i := ⟨b 0, eq_ix1 b⟩
  fin_cases i <;> rfl

/-- The widened factor as the host code forms it from `A`: written into a zero array, then the format changed. -/
def A0of (A : FVec Ideal S4096x64 .f32) : FVec Ideal S4096x128 .bf16 :=
  truncf (F := Ideal) .bf16 (Host.scatter scatter_S4096x128_S1_S4096x64_01_n_1_0 (fun _ b => b) zerosA startA A) bitsLt_bf16_f32

/-- Entry `(e, k)` of the widened factor: `A[e, k]` for `k < 64`, zero from column 64 on. -/
theorem A0of_apply (A : FVec Ideal S4096x64 .f32) (e : Fin 4096) (k : Fin 128) :
    A0of A (ix2 e k) = padA (mat A) e k := by
  unfold A0of
  refine (congrFun (truncf_id (φ := .f32) (ψ := .bf16) _ bitsLt_bf16_f32) (ix2 e k)).trans ?_
  refine (Cert.KernelIdeal.Pad.set_columns_apply zerosA startA startA_zero A e k).trans ?_
  unfold padA
  by_cases h : k.val < 64
  · rw [dif_pos h, dif_pos h]; rfl
  · rw [dif_neg h, dif_neg h]; exact zerosA_apply _

/-- The region finds the widened factor of `A` as launched. -/
theorem V_A0 (c : Dev nD) : V m c main_v13 = A0of (m ((c : Thread nD τ).loc main_arg1)) := by
  show StableHlo.after hostOps0 (fun b => m (c, b)) (Proc.devRef .tc main_v13) = _
  unfold A0of
  after_results

theorem A0_apply (c : Dev nD) (e : Fin 4096) (k : Fin 128) :
    V m c main_v13 (ix2 e k) = padA (mat (m ((c : Thread nD τ).loc main_arg1))) e k :=
  (congrFun (V_A0 m c) (ix2 e k)).trans (A0of_apply _ e k)

/-- The core `B · (Wᵀ · Bᵀ)` as the host code forms it. -/
def coreOf (B : FVec Ideal S64x768 .f32) (W : FVec Ideal S768x768 .f32) : FVec Ideal S64x64 .f32 :=
  Host.dotGeneral dot_S64x768_S768x64_S64x64_1_0_0_1_n_n none B
    (Host.dotGeneral dot_S768x768_S768x64_S768x64_1_0_0_1_n_n none
      (transpose S768x768 [1, 0] W transposes_S768x768_S768x768_1_0) (transpose S768x64 [1, 0] B transposes_S64x768_S768x64_1_0))

/-- The widened core as the host code forms it from `B` and `W`. -/
def C0of (B : FVec Ideal S64x768 .f32) (W : FVec Ideal S768x768 .f32) : FVec Ideal S128x128 .bf16 :=
  truncf (F := Ideal) .bf16 (Host.scatter scatter_S128x128_S2_S64x64_01_n_01_0 (fun _ b => b) zerosC startC (coreOf B W)) bitsLt_bf16_f32

/-- Entry `(r, k)` of the widened core: `C[r, k]` in the top-left 64 × 64 corner, zero elsewhere. -/
theorem C0of_apply (B : FVec Ideal S64x768 .f32) (W : FVec Ideal S768x768 .f32) (r k : Fin 128) :
    C0of B W (ix2 r k) = padC (core (mat B) (mat W)) r k := by
  unfold C0of
  refine (congrFun (truncf_id (φ := .f32) (ψ := .bf16) _ bitsLt_bf16_f32) (ix2 r k)).trans ?_
  refine (Cert.KernelIdeal.Pad.set_corner_apply zerosC startC startC_zero (coreOf B W) r k).trans ?_
  unfold padC
  by_cases h : r.val < 64 ∧ k.val < 64
  · rw [dif_pos h, dif_pos h]
    exact Cert.KernelIdeal.Core.core_apply B W ⟨r.val, h.1⟩ ⟨k.val, h.2⟩
  · rw [dif_neg h, dif_neg h]; exact zerosC_apply _

/-- The region finds the widened core of `B` and `W` as launched. -/
theorem V_C0 (c : Dev nD) :
    V m c main_v14 = C0of (m ((c : Thread nD τ).loc main_arg2)) (m ((c : Thread nD τ).loc main_arg3)) := by
  show StableHlo.after hostOps0 (fun b => m (c, b)) (Proc.devRef .tc main_v14) = _
  unfold C0of coreOf
  after_results

theorem C0_apply (c : Dev nD) (r k : Fin 128) :
    V m c main_v14 (ix2 r k)
      = padC (core (mat (m ((c : Thread nD τ).loc main_arg2))) (mat (m ((c : Thread nD τ).loc main_arg3)))) r k :=
  (congrFun (V_C0 m c) (ix2 r k)).trans (C0of_apply _ _ r k)

/-- The region's result array at row `2048·b + s`, column `d`: the `fused` form for row `(b, s)` of `x`. -/
theorem whole_apply (c : Dev nD) (b : Fin 4) (s : Fin 2048) (d : Fin 4096) :
    whole (V m c main_v0) (V m c main_v13) (V m c main_v14)
        (ix2 ⟨b.val * 2048 + s.val, by have := b.isLt; have := s.isLt; omega⟩ d)
      = fused (rowOf (m ((c : Thread nD τ).loc main_arg0)) b s) (mat (m ((c : Thread nD τ).loc main_arg1)))
          (mat (m ((c : Thread nD τ).loc main_arg2))) (mat (m ((c : Thread nD τ).loc main_arg3))) d := by
  show triple (V m c main_v0) (V m c main_v13) (V m c main_v14) ⟨b.val * 2048 + s.val, _⟩ d = _
  unfold triple fused
  refine Finset.sum_congr rfl fun k _ => ?_
  refine congrArg₂ (· * ·) (Finset.sum_congr rfl fun r _ => ?_) (A0_apply m c d k)
  refine congrArg₂ (· * ·) (Finset.sum_congr rfl fun e _ => ?_) (C0_apply m c r k)
  exact congrArg₂ (· * ·) (flat_apply m c b s e) (A0_apply m c e r)

end Cert.KernelIdeal.HostSide

end
-- ==== Proof.KernelRun.lean ====
/-
  The idealized kernel's run, with its result named.

  After the region the host code reshapes the 8192 × 4096 result array back to 4 × 2048 × 4096: entry `(b, s, d)` of the
  program's result is entry `(2048·b + s, d)` of the region's array, which is the `fused` form for row `(b, s)` of
  `x`.  So every weakly fair execution of the program ends with its result at `Cert.Sandwich.result` of the argument
  arrays, and the arguments as launched.
-/
import proofs.«141293_j26645977104594_2_alg».proof.Proof.HostSide

noncomputable section

namespace Cert.KernelIdeal.KernelRun

open Idealize.ShloMosaic Idealize.ShloMosaic.TcCoe Idealize.ShloMosaic.ValueIdx Idealize.SL.Sem
open Idealize.ShloMosaic.StableHlo
open Cert.KernelIdeal Cert.KernelIdeal.Gen Cert.KernelIdeal.Blocks Cert.KernelIdeal.HostSide Cert.Sandwich

variable (m : (ℓ : Loc nD τ sig) → Buf (Elt Ideal) ℓ) (ρ : Dev nD → PrngReg)

/-- What the host line after the region leaves in the program's result: the region's array, reshaped. -/
theorem tail_eq (c : Dev nD) :
    Pipeline.afterTail₀ cfgs (dats m) 0 (V0 m) [hostOps1] c main_v16
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v16) = _
  after_results
  have hw := (Pipeline.withArrays_arr spec0 launch0.win.arr_inj c (V0 m c) (fun w => (dats m 0 c).arrAt w cfg0.N) 3).trans (final m c)
  funext i
  obtain ⟨b, s, d, rfl⟩ : ∃ (b : Fin 4) (s : Fin 2048) (d : Fin 4096), i = ix3 b s d := ⟨i 0, i 1, i 2, eq_ix3 i⟩
  show shapeCast S4x2048x4096 (Pipeline.withArrays spec0 c (V0 m c) (fun w => (dats m 0 c).arrAt w cfg0.N)
      (Proc.devRef .tc (Pipeline.arrRef spec0 3))) shapeCasts_S8192x4096_S4x2048x4096 (ix3 b s d) = _
  rw [hw, Cert.LibBatchBlocks.shapeCast_split01_apply _ _
    ⟨b.val * 2048 + s.val, by have := b.isLt; have := s.isLt; omega⟩ b s d rfl]
  exact whole_apply m c b s d

/-- THE RUN: every weakly fair execution of the idealized kernel terminates with its result at `result` of the
    argument arrays and the arguments unchanged. -/
theorem run : θ_run defs (onTc (τ := τ) (main (F := Ideal))) ⟨m, fun _ => 0, ρ⟩ fun r => ∀ c : Dev nD,
      r.2.mem ((c.tc : Thread nD τ).loc main_v16)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KernelRun

end
-- ==== Proof.RefChain.lean ====
/-
  The reference program read at one index is the specification's chain.

  The reference is five contractions one after the other. Each, read at the index (b, s, c), is a sum over
  its one contracted coordinate of the previous stage at (b, s, k) times a matrix entry; the index terms the
  generated reading lemmas produce are, coordinate by coordinate, the indices (b, s, k) and (row, column).
  Substituting stage into stage from the last to the first gives the five nested sums of the chain.
-/
import proofs.«141293_j26645977104594_2_alg».proof.Proof.Gen.ReferenceIdeal.Read
import proofs.«141293_j26645977104594_2_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Read
open scoped BigOperators

/-! ### The index terms, by coordinates -/

/-- Stage 0, left operand: row (b, s) of the input at feature e. -/
theorem lidx0 (b : Fin 4) (s : Fin 2048) (r : Fin 64) (e : Fin 4096) :
    lidx_main_v0 (ix3 b s r) e = ix3 b s e := by
  funext a; match a with | ⟨0, _⟩ => rfl | ⟨1, _⟩ => rfl | ⟨2, _⟩ => rfl

/-- Stage 0, right operand: entry (e, r). -/
theorem ridx0 (b : Fin 4) (s : Fin 2048) (r : Fin 64) (e : Fin 4096) :
    ridx_main_v0 (ix3 b s r) e = ix2 e r := by
  funext a; match a with | ⟨0, _⟩ => rfl | ⟨1, _⟩ => rfl

/-- Stage 1, left operand: the previous stage at (b, s, r). -/
theorem lidx1 (b : Fin 4) (s : Fin 2048) (a : Fin 768) (r : Fin 64) :
    lidx_main_v1 (ix3 b s a) r = ix3 b s r := by
  funext c; match c with | ⟨0, _⟩ => rfl | ⟨1, _⟩ => rfl | ⟨2, _⟩ => rfl

/-- Stage 1, right operand: entry (r, a). -/
theorem ridx1 (b : Fin 4) (s : Fin 2048) (a : Fin 768) (r : Fin 64) :
    ridx_main_v1 (ix3 b s a) r = ix2 r a := by
  funext c; match c with | ⟨0, _⟩ => rfl | ⟨1, _⟩ => rfl

/-- Stage 2, left operand: the previous stage at (b, s, a). -/
theorem lidx2 (b : Fin 4) (s : Fin 2048) (j : Fin 768) (a : Fin 768) :
    lidx_main_v2 (ix3 b s j) a = ix3 b s a := by
  funext c; match c with | ⟨0, _⟩ => rfl | ⟨1, _⟩ => rfl | ⟨2, _⟩ => rfl

/-- Stage 2, right operand: entry (j, a), the second axis contracted. -/
theorem ridx2 (b : Fin 4) (s : Fin 2048) (j : Fin 768) (a : Fin 768) :
    ridx_main_v2 (ix3 b s j) a = ix2 j a := by
  funext c; match c with | ⟨0, _⟩ => rfl | ⟨1, _⟩ => rfl

/-- Stage 3, left operand: the previous stage at (b, s, j). -/
theorem lidx3 (b : Fin 4) (s : Fin 2048) (k : Fin 64) (j : Fin 768) :
    lidx_main_v3 (ix3 b s k) j = ix3 b s j := by
  funext c; match c with | ⟨0, _⟩ => rfl | ⟨1, _⟩ => rfl | ⟨2, _⟩ => rfl

/-- Stage 3, right operand: entry (k, j), the second axis contracted. -/
theorem ridx3 (b : Fin 4) (s : Fin 2048) (k : Fin 64) (j : Fin 768) :
    ridx_main_v3 (ix3 b s k) j = ix2 k j := by
  funext c; match c with | ⟨0, _⟩ => rfl | ⟨1, _⟩ => rfl

/-- Stage 4, left operand: the previous stage at (b, s, k). -/
theorem lidx4 (b : Fin 4) (s : Fin 2048) (d : Fin 4096) (k : Fin 64) :
    lidx_main_v4 (ix3 b s d) k = ix3 b s k := by
  funext c; match c with | ⟨0, _⟩ => rfl | ⟨1, _⟩ => rfl | ⟨2, _⟩ => rfl

/-- Stage 4, right operand: entry (d, k), the second axis contracted. -/
theorem ridx4 (b : Fin 4) (s : Fin 2048) (d : Fin 4096) (k : Fin 64) :
    ridx_main_v4 (ix3 b s d) k = ix2 d k := by
  funext c; match c with | ⟨0, _⟩ => rfl | ⟨1, _⟩ => rfl

/-! ### The five stages at (b, s, ·) -/

variable (x0 : FVec Ideal S4x2048x4096 .f32) (x1 : FVec Ideal S4096x64 .f32)
  (x2 : FVec Ideal S64x768 .f32) (x3 : FVec Ideal S768x768 .f32) (b : Fin 4) (s : Fin 2048)

/-- Stage 0 at (b, s, r): Σ_e x0[b,s,e] · x1[e,r]. -/
theorem v0_at (r : Fin 64) :
    val_main_v0 (F := Ideal) x0 x1 (ix3 b s r) = ∑ e : Fin 4096, x0 (ix3 b s e) * x1 (ix2 e r) := by
  rw [val_main_v0_apply]
  exact Finset.sum_congr rfl fun e _ => by rw [lidx0, ridx0]

/-- Stage 1 at (b, s, a): Σ_r stage0[b,s,r] · x2[r,a]. -/
theorem v1_at (a : Fin 768) :
    val_main_v1 (F := Ideal) x0 x1 x2 (ix3 b s a)
      = ∑ r : Fin 64, val_main_v0 (F := Ideal) x0 x1 (ix3 b s r) * x2 (ix2 r a) := by
  rw [val_main_v1_apply]
  exact Finset.sum_congr rfl fun r _ => by rw [lidx1, ridx1]

/-- Stage 2 at (b, s, j): Σ_a stage1[b,s,a] · x3[j,a]. -/
theorem v2_at (j : Fin 768) :
    val_main_v2 (F := Ideal) x0 x1 x2 x3 (ix3 b s j)
      = ∑ a : Fin 768, val_main_v1 (F := Ideal) x0 x1 x2 (ix3 b s a) * x3 (ix2 j a) := by
  rw [val_main_v2_apply]
  exact Finset.sum_congr rfl fun a _ => by rw [lidx2, ridx2]

/-- Stage 3 at (b, s, k): Σ_j stage2[b,s,j] · x2[k,j]. -/
theorem v3_at (k : Fin 64) :
    val_main_v3 (F := Ideal) x0 x1 x2 x3 (ix3 b s k)
      = ∑ j : Fin 768, val_main_v2 (F := Ideal) x0 x1 x2 x3 (ix3 b s j) * x2 (ix2 k j) := by
  rw [val_main_v3_apply]
  exact Finset.sum_congr rfl fun j _ => by rw [lidx3, ridx3]

/-- Stage 4 at (b, s, d): Σ_k stage3[b,s,k] · x1[d,k]. -/
theorem v4_at (d : Fin 4096) :
    val_main_v4 (F := Ideal) x0 x1 x2 x3 (ix3 b s d)
      = ∑ k : Fin 64, val_main_v3 (F := Ideal) x0 x1 x2 x3 (ix3 b s k) * x1 (ix2 d k) := by
  rw [val_main_v4_apply]
  exact Finset.sum_congr rfl fun k _ => by rw [lidx4, ridx4]

/-- The reference's result at (b, s, d) is the chain of five contractions on row (b, s) of the input. -/
theorem ref_apply (x0 : FVec Ideal S4x2048x4096 .f32) (x1 : FVec Ideal S4096x64 .f32)
    (x2 : FVec Ideal S64x768 .f32) (x3 : FVec Ideal S768x768 .f32)
    (b : Fin 4) (s : Fin 2048) (d : Fin 4096) :
    val_main_v4 (F := Ideal) x0 x1 x2 x3 (ix3 b s d)
      = Cert.Sandwich.chain (fun e => x0 (ix3 b s e)) (fun e r => x1 (ix2 e r)) (fun r a => x2 (ix2 r a))
          (fun j a => x3 (ix2 j a)) d := by
  simp only [v4_at, v3_at, v2_at, v1_at, v0_at, Cert.Sandwich.chain]

end Cert.ReferenceIdeal.RefValue

end
-- ==== Proof.Law.lean ====
/-
  The algebraic law joining the two programs: with every entry a real number, the fused form
  (core first, rank widened to 128 by zeros) and the left-to-right chain of five contractions agree.

  Three steps. The widened channels carry a zero factor, so the sums over 128 shrink to sums over 64
  (true in the extended reals as they stand, since y * 0 = 0). Finite sums and products of coerced reals
  are coerced real sums and products, so both sides are coercions of real numbers. In the reals the two
  are equal by distributivity and the exchange of finite sums.
-/
import proofs.«141293_j26645977104594_2_alg».proof.Proof.Spec

noncomputable section

namespace Cert.Sandwich

open scoped BigOperators

/-- A sum over m + n indices of a function that vanishes from index m on is the sum over the
    first m indices. -/
theorem sum_widen {M : Type*} [AddCommMonoid M] (m n : ℕ) (g : Fin (m + n) → M)
    (hg : ∀ k : Fin (m + n), m ≤ k.val → g k = 0) :
    ∑ k, g k = ∑ k : Fin m, g (Fin.castAdd n k) := by
  rw [Fin.sum_univ_add]
  have h0 : ∑ i : Fin n, g (Fin.natAdd m i) = 0 :=
    Finset.sum_eq_zero fun i _ => hg _ (Fin.le_coe_natAdd m i)
  rw [h0, add_zero]

/-- The same at 64 + 64 = 128. -/
theorem sum_widen128 {M : Type*} [AddCommMonoid M] (g : Fin 128 → M)
    (hg : ∀ k : Fin 128, 64 ≤ k.val → g k = 0) :
    ∑ k, g k = ∑ k : Fin 64, g (Fin.castAdd 64 k) :=
  sum_widen 64 64 g hg

/-- On the first 64 columns the widened A is A. -/
theorem padA_low (A : Fin 4096 → Fin 64 → EReal) (d : Fin 4096) (k : Fin 64) :
    padA A d (Fin.castAdd 64 k) = A d k := by
  unfold padA
  rw [dif_pos (show (Fin.castAdd 64 k).val < 64 from k.isLt)]
  rfl

/-- From column 64 on the widened A is zero. -/
theorem padA_high (A : Fin 4096 → Fin 64 → EReal) (d : Fin 4096) (k : Fin 128) (hk : 64 ≤ k.val) :
    padA A d k = 0 := by
  unfold padA
  rw [dif_neg (Nat.not_lt.mpr hk)]

/-- In the top-left 64 × 64 corner the widened C is C. -/
theorem padC_low (C : Fin 64 → Fin 64 → EReal) (r k : Fin 64) :
    padC C (Fin.castAdd 64 r) (Fin.castAdd 64 k) = C r k := by
  unfold padC
  rw [dif_pos (show (Fin.castAdd 64 r).val < 64 ∧ (Fin.castAdd 64 k).val < 64 from ⟨r.isLt, k.isLt⟩)]
  rfl

/-- From row 64 on the widened C is zero. -/
theorem padC_high (C : Fin 64 → Fin 64 → EReal) (r k : Fin 128) (hr : 64 ≤ r.val) :
    padC C r k = 0 := by
  unfold padC
  rw [dif_neg fun h => Nat.not_lt.mpr hr h.1]

/-- The widened channels contribute nothing: the fused form is the same three contractions over
    the 64 true channels. No finiteness is needed here. -/
theorem fused_eq_narrow (x : Fin 4096 → EReal) (A : Fin 4096 → Fin 64 → EReal)
    (B : Fin 64 → Fin 768 → EReal) (W : Fin 768 → Fin 768 → EReal) (d : Fin 4096) :
    fused x A B W d =
      ∑ k : Fin 64, (∑ r : Fin 64, (∑ e : Fin 4096, x e * A e r) * core B W r k) * A d k := by
  unfold fused
  rw [sum_widen128 _ fun k hk => by rw [padA_high A d k hk, mul_zero]]
  refine Finset.sum_congr rfl fun k _ => ?_
  rw [padA_low, sum_widen128 _ fun r hr => by rw [padC_high _ r _ hr, mul_zero]]
  congr 1
  refine Finset.sum_congr rfl fun r _ => ?_
  rw [padC_low]
  congr 1
  exact Finset.sum_congr rfl fun e _ => by rw [padA_low]

/-- A finite sum of coerced reals is the coercion of the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law in a commutative semiring: contracting P against B·(Wᵀ·b) row by row equals
    contracting ((P·B)·Wᵀ) against b. -/
theorem sandwich_semiring {R ι κ : Type*} [CommSemiring R] [Fintype ι] [Fintype κ]
    (P : ι → R) (B : ι → κ → R) (W : κ → κ → R) (b : κ → R) :
    ∑ r, P r * (∑ a, B r a * (∑ j, W j a * b j)) =
      ∑ j, (∑ a, (∑ r, P r * B r a) * W j a) * b j := by
  simp only [Finset.mul_sum, Finset.sum_mul]
  calc ∑ r, ∑ a, ∑ j, P r * (B r a * (W j a * b j))
      = ∑ a, ∑ r, ∑ j, P r * (B r a * (W j a * b j)) := Finset.sum_comm
    _ = ∑ a, ∑ j, ∑ r, P r * (B r a * (W j a * b j)) :=
        Finset.sum_congr rfl fun a _ => Finset.sum_comm
    _ = ∑ j, ∑ a, ∑ r, P r * (B r a * (W j a * b j)) := Finset.sum_comm
    _ = ∑ j, ∑ a, ∑ r, P r * B r a * W j a * b j :=
        Finset.sum_congr rfl fun j _ => Finset.sum_congr rfl fun a _ =>
          Finset.sum_congr rfl fun r _ => by ring

/-- With every entry a real number, the fused form and the chain of five contractions agree. -/
theorem fused_eq_chain (x : Fin 4096 → EReal) (A : Fin 4096 → Fin 64 → EReal)
    (B : Fin 64 → Fin 768 → EReal) (W : Fin 768 → Fin 768 → EReal)
    (hx : ∀ e, ∃ v : ℝ, x e = (v : EReal)) (hA : ∀ e r, ∃ v : ℝ, A e r = (v : EReal))
    (hB : ∀ r a, ∃ v : ℝ, B r a = (v : EReal)) (hW : ∀ j a, ∃ v : ℝ, W j a = (v : EReal))
    (d : Fin 4096) :
    fused x A B W d = chain x A B W d := by
  choose xr hxr using hx
  choose Ar hAr using hA
  choose Br hBr using hB
  choose Wr hWr using hW
  obtain rfl : x = fun e => (xr e : EReal) := funext hxr
  obtain rfl : A = fun e r => (Ar e r : EReal) := funext fun e => funext (hAr e)
  obtain rfl : B = fun r a => (Br r a : EReal) := funext fun r => funext (hBr r)
  obtain rfl : W = fun j a => (Wr j a : EReal) := funext fun j => funext (hWr j)
  rw [fused_eq_narrow]
  simp only [chain, core, wtbt, ← EReal.coe_mul, coe_sum]
  refine congrArg (fun v : ℝ => (v : EReal)) (Finset.sum_congr rfl fun k _ => ?_)
  rw [sandwich_semiring]

end Cert.Sandwich

end
-- ==== Proof.RefResult.lean ====
/-
  The reference's result, for real entries, is the same array the kernel ends holding.

  Entry `(b, s, d)` of the reference's result is the specification's `chain` for row `(b, s)` of `x` (the five
  contractions one after the other); when every entry of `x`, `A`, `B`, `W` is a real number, `chain` equals `fused`
  (distributivity and the exchange of finite sums; the widened channels contribute zero), which is `result`.
-/
import proofs.«141293_j26645977104594_2_alg».proof.Proof.RefChain
import proofs.«141293_j26645977104594_2_alg».proof.Proof.Law
import proofs.«141293_j26645977104594_2_alg».proof.Proof.Result

noncomputable section

namespace Cert.ReferenceIdeal.RefValue

open Idealize.ShloMosaic Idealize.ShloMosaic.ValueIdx Cert.ReferenceIdeal Cert.ReferenceIdeal.Read Cert.Sandwich

/-- The reference's last stage is `result` of the same arrays, when every entry is a real number. -/
theorem ref_eq_result (x0 : FVec Ideal S4x2048x4096 .f32) (x1 : FVec Ideal S4096x64 .f32) (x2 : FVec Ideal S64x768 .f32)
    (x3 : FVec Ideal S768x768 .f32)
    (h0 : ∀ i, ∃ v : ℝ, x0 i = (v : EReal)) (h1 : ∀ i, ∃ v : ℝ, x1 i = (v : EReal))
    (h2 : ∀ i, ∃ v : ℝ, x2 i = (v : EReal)) (h3 : ∀ i, ∃ v : ℝ, x3 i = (v : EReal)) :
    val_main_v4 (F := Ideal) x0 x1 x2 x3 = result x0 x1 x2 x3 := by
  funext i
  obtain ⟨b, s, d, rfl⟩ : ∃ (b : Fin 4) (s : Fin 2048) (d : Fin 4096), i = ix3 b s d := ⟨i 0, i 1, i 2, eq_ix3 i⟩
  rw [ref_apply]
  exact (fused_eq_chain (rowOf x0 b s) (mat x1) (mat x2) (mat x3) (fun _ => h0 _) (fun _ _ => h1 _) (fun _ _ => h2 _)
    (fun _ _ => h3 _) d).symm

end Cert.ReferenceIdeal.RefValue

end
-- ==== Proof.Finite.lean ====
/-
  From the precondition "every float input is finite" to "every entry of every argument array is a real
  number", floats read as extended reals.

  The precondition is, for each of the four arrays, the conjunction over all entries of the test
  `|a| < +∞`, and the four results conjoined. A conjunction that is true has only true members; the
  pattern `0x7F800000` denotes `+∞`; and an extended real `x` with `max x (-x) < ⊤` is neither
  `⊤` nor `⊥`, hence a real number.
-/
import proofs.«141293_j26645977104594_2_alg».proof.Pre_finite_inputs
import proofs.«141293_j26645977104594_2_alg».proof.Proof.Gen.Pre_finite_inputs
import Idealize.ShloMosaic.PureOps.Ideal
import Idealize.ShloMosaic.Lib.ReduceAll
import Idealize.ShloMosaic.Lib.ValueIdx

namespace Cert.Finite

open Idealize.ShloMosaic Idealize.ShloMosaic.ValueIdx Cert.Pre_finite_inputs

/-- The binary32 pattern `0x7F800000` denotes `+∞`. -/
theorem ofBits_inf : Ideal.ofBits .f32 0x7F800000#32 = (⊤ : EReal) := by
  simp [Ideal.ofBits, Ideal.ieee]

/-- An extended real whose absolute value `max x (-x)` lies strictly below `+∞` is a real number. -/
theorem real_of_abs_lt_top (x : EReal) (h : max x (-x) < ⊤) : ∃ v : ℝ, x = (v : EReal) := by
  induction x using EReal.rec with
  | bot => simp at h
  | coe r => exact ⟨r, rfl⟩
  | top => simp at h

/-- A one-bit word made from a Boolean is `1` exactly when the Boolean is true. -/
theorem ofBool_eq_one {b : Bool} : BitVec.ofBool b = 1#1 ↔ b = true := by cases b <;> decide

/-- One entry: if the word of the comparison `|x| < +∞` (the bound given by its pattern) is `1`,
    then `x` is a real number. -/
theorem real_of_cmp (x : Ideal .f32)
    (h : FloatOps.cmpf .olt (FloatOps.hostAbsf x) (FloatOps.ofBits (F := Ideal) .f32 0x7F800000#32) = 1#1) :
    ∃ v : ℝ, x = (v : EReal) := by
  have h' : BitVec.ofBool (decide (max x (-x) < Ideal.ofBits .f32 0x7F800000#32)) = 1#1 := h
  rw [ofBool_eq_one, decide_eq_true_eq, ofBits_inf] at h'
  exact real_of_abs_lt_top x h'

/-- The scalar shape has exactly one index. -/
instance : Subsingleton S_.Idx := ⟨fun a b => funext fun d => d.elim0⟩

/-- One array of any shape: if the conjunction over all entries of `|a| < +∞` is `1`, every entry of
    `a` is a real number. -/
theorem real_of_all {S : Shape} {axes : List (Fin S.rank)} (a : FVec Ideal S .f32)
    (hb : S_.BroadcastsInDim S (![] : Fin 0 → Fin S.rank)) (hr : S.ReducesTo axes S_) (hu : 0 < S_.numel)
    (init : IVec S_ 1)
    (h : Host.reduce IntOp.andi
          (cmpf .olt (Host.absf a) (broadcastInDim S ![] hb (constant S_ .f32 0x7F800000#32))) init hr hu ix0
        = 1#1) :
    ∀ i, ∃ v : ℝ, a i = (v : EReal) := fun i =>
  real_of_cmp (a i) (Host.reduce_andi_all _ init hr hu ix0 h i)

/-- The precondition at the extended reals gives: every entry of each of the four arrays is a real number. -/
theorem real_of_finite (a0 : FVec Ideal S4x2048x4096 .f32) (a1 : FVec Ideal S4096x64 .f32)
    (a2 : FVec Ideal S64x768 .f32) (a3 : FVec Ideal S768x768 .f32)
    (h : Cert.Pre_finite_inputs.fn (F := Ideal) a0 a1 a2 a3 = (fun _ => 1#1)) :
    (∀ i, ∃ v : ℝ, a0 i = (v : EReal)) ∧ (∀ i, ∃ v : ℝ, a1 i = (v : EReal)) ∧
      (∀ i, ∃ v : ℝ, a2 i = (v : EReal)) ∧ (∀ i, ∃ v : ℝ, a3 i = (v : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2,
    real_of_all a3 _ _ _ _ h3⟩

end Cert.Finite
-- ==== Proof.lean ====
/-
  The certificate of the low-rank "sandwich" kernel against its reference, on the extended reals.

  Both programs compute, for every row `x` of the 8192 rows of the input (4096 features),
  `x · A · B · Wᵀ · Bᵀ · Aᵀ` with `A : 4096 × 64`, `B : 64 × 768`, `W : 768 × 768`.  The reference takes the five
  contractions one after the other.  The kernel forms the 64 × 64 core `C = B · (Wᵀ · Bᵀ)` once on the host, widens
  `A` and `C` from rank 64 to 128 by zeros, and on a grid of 32 steps of 256 rows each computes
  `((X · A₀) · C₀) · A₀ᵀ`; a final reshape restores the 4 × 2048 × 4096 layout.

  * The frames of the two kernel programs are the generated ones; the reference's is its generated run.
  * Nothing was rewritten by the idealization, so there is nothing to preserve.
  * `algebraic`: the kernel's run ends with its result at `Cert.Sandwich.result` of the arguments (the payload read
    entry by entry, the 32 row blocks covering the array, the host lines before and after the region read at an
    index: Proof/Payload, Blocks, HostSide, KernelRun); the reference's run ends at its chain of five contractions
    (Proof/RefChain), equal to `result` because the precondition makes every entry a real number (Proof/Finite), where
    distributivity and the exchange of finite sums hold and the widened channels contribute zero (Proof/Law).
-/
import proofs.«141293_j26645977104594_2_alg».proof.Defs
import proofs.«141293_j26645977104594_2_alg».proof.Proof.Gen.Kernel
import proofs.«141293_j26645977104594_2_alg».proof.Proof.Gen.Kernel.Skeleton
import proofs.«141293_j26645977104594_2_alg».proof.Proof.Gen.Kernel.Launch
import proofs.«141293_j26645977104594_2_alg».proof.Proof.Gen.Kernel.Points
import proofs.«141293_j26645977104594_2_alg».proof.Proof.Gen.Kernel.Frame
import proofs.«141293_j26645977104594_2_alg».proof.Proof.Gen.KernelIdeal
import proofs.«141293_j26645977104594_2_alg».proof.Proof.Gen.KernelIdeal.Skeleton
import proofs.«141293_j26645977104594_2_alg».proof.Proof.Gen.KernelIdeal.Launch
import proofs.«141293_j26645977104594_2_alg».proof.Proof.Gen.KernelIdeal.Points
import proofs.«141293_j26645977104594_2_alg».proof.Proof.Gen.KernelIdeal.Frame
import proofs.«141293_j26645977104594_2_alg».proof.Proof.Gen.ReferenceIdeal
import proofs.«141293_j26645977104594_2_alg».proof.Proof.Gen.ReferenceIdeal.Run
import proofs.«141293_j26645977104594_2_alg».proof.Proof.Gen.ReferenceIdeal.Read
import proofs.«141293_j26645977104594_2_alg».proof.Proof.Gen.Pre_finite_inputs
import proofs.«141293_j26645977104594_2_alg».proof.Proof.KernelRun
import proofs.«141293_j26645977104594_2_alg».proof.Proof.RefResult
import proofs.«141293_j26645977104594_2_alg».proof.Proof.Finite
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the kernel's result and the reference's are one array: the kernel ends at
    `result` of the arguments; the reference ends at its chain of contractions of the same arguments, which is `result`
    since the precondition makes every entry a real number. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨f0, f1, f2, f3⟩ := Cert.Finite.real_of_finite _ _ _ _ (hpre c)
  exact (Cert.ReferenceIdeal.Read.val_main_v4_eq _ _ _ _).trans
    (Cert.ReferenceIdeal.RefValue.ref_eq_result _ _ _ _ f0 f1 f2 f3)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
